-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128 : Shape := ⟨3, ![8, 512, 128]⟩
abbrev S_ : Shape := ⟨0, ![]⟩

class Facts : Prop where
  bcast_S_S8x512x128 : S_.BroadcastsInDim S8x512x128 (![] : Fin 0 → Fin S8x512x128.rank)
  reducesTo_S8x512x128_S_d0_1_2 : S8x512x128.ReducesTo [0, 1, 2] S_
  h_S_ : 0 < S_.numel

variable [Facts]

def fn {F : FTy → Type} [FloatOps F] (main_arg0 : FVec F S8x512x128 .f32) : IVec S_ 1 :=
  let main_v0 : FVec F S8x512x128 .f32 := Host.absf main_arg0
  let main_cst : FVec F S_ .f32 := constant S_ .f32 0x7F800000#32
  let main_v1 : FVec F S8x512x128 .f32 := broadcastInDim S8x512x128 ![] bcast_S_S8x512x128 main_cst
  let main_v2 : IVec S8x512x128 1 := cmpf .olt main_v0 main_v1
  let main_c : IVec S_ 1 := constantI S_ 1 1#1
  let main_v3 : IVec S_ 1 := (fun x v => Host.reduce IntOp.andi x v reducesTo_S8x512x128_S_d0_1_2 h_S_) main_v2 main_c
  main_v3
-- ==== Kernel.lean ====
abbrev S8x512x128 : Shape := ⟨3, ![8, 512, 128]⟩
abbrev S8x512x16512 : Shape := ⟨3, ![8, 512, 16512]⟩
abbrev S1x512x128 : Shape := ⟨3, ![1, 512, 128]⟩
abbrev S1x256x16512 : Shape := ⟨3, ![1, 256, 16512]⟩
abbrev S512x128 : Shape := ⟨2, ![512, 128]⟩
abbrev S1x256x128 : Shape := ⟨3, ![1, 256, 128]⟩
abbrev S256x128 : Shape := ⟨2, ![256, 128]⟩
abbrev S128x256 : Shape := ⟨2, ![128, 256]⟩
abbrev S512x256 : Shape := ⟨2, ![512, 256]⟩
abbrev S256 : Shape := ⟨1, ![256]⟩
abbrev S1x256 : Shape := ⟨2, ![1, 256]⟩
abbrev S256x512 : Shape := ⟨2, ![256, 512]⟩
abbrev S1x256x512 : Shape := ⟨3, ![1, 256, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x512x128, .f32⟩
  | .hbm, ⟨1, _⟩ => ⟨S8x512x16512, .f32⟩
  | .local _ .vmem, ⟨0, _⟩ => ⟨S1x512x128, .f32⟩
  | .local _ .vmem, ⟨1, _⟩ => ⟨S1x512x128, .f32⟩
  | .local _ .vmem, ⟨2, _⟩ => ⟨S1x256x16512, .f32⟩
  | .local _ .vmem, ⟨3, _⟩ => ⟨S1x256x16512, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0_2 : Index := 0#32
  let arg1 : BitVec 32 := BitVec.ofNat 32 (i 1).val
  let c256_i32 : BitVec 32 := 256#32
  let v0 : BitVec 32 := Scalar.muli arg1 c256_i32
  let v1 : BitVec 32 := v0
  let v4 : Index := Scalar.indexCast v1
  let c0_3 : Index := 0#32
  ![0, v4.toNat, 0]
def k0_mult2 : BitVec 32 :=
  let c128_i32 : BitVec 32 := 128#32
  let c0_i32 : BitVec 32 := 0#32
  let c512_i32 : BitVec 32 := 512#32
  let v25 : BitVec 32 := Scalar.muli c0_i32 c512_i32
  let v26 : BitVec 32 := Scalar.addi c128_i32 v25
  v26
def k0_off2 (c0_i32 : BitVec 32) : Fin 3 → Nat :=
  let c0_10 : Index := 0#32
  let c0_11 : Index := 0#32
  let c128_i32 : BitVec 32 := 128#32
  let c512_i32 : BitVec 32 := 512#32
  let v25 : BitVec 32 := Scalar.muli c0_i32 c512_i32
  let v26 : BitVec 32 := Scalar.addi c128_i32 v25
  let v27 : BitVec 32 := v26
  let v28 : Index := Scalar.indexCast v27
  ![0, 0, v28.toNat]
def k0_mult3 : BitVec 32 :=
  let c128_i32_13 : BitVec 32 := 128#32
  let c1_i32 : BitVec 32 := 1#32
  let c512_i32_12 : BitVec 32 := 512#32
  let v32 : BitVec 32 := Scalar.muli c1_i32 c512_i32_12
  let v33 : BitVec 32 := Scalar.addi c128_i32_13 v32
  v33
def k0_mult4 : BitVec 32 :=
  let c128_i32_17 : BitVec 32 := 128#32
  let c2_i32 : BitVec 32 := 2#32
  let c512_i32_16 : BitVec 32 := 512#32
  let v39 : BitVec 32 := Scalar.muli c2_i32 c512_i32_16
  let v40 : BitVec 32 := Scalar.addi c128_i32_17 v39
  v40
def k0_mult5 : BitVec 32 :=
  let c128_i32_21 : BitVec 32 := 128#32
  let c3_i32 : BitVec 32 := 3#32
  let c512_i32_20 : BitVec 32 := 512#32
  let v46 : BitVec 32 := Scalar.muli c3_i32 c512_i32_20
  let v47 : BitVec 32 := Scalar.addi c128_i32_21 v46
  v47
def k0_mult6 : BitVec 32 :=
  let c128_i32_25 : BitVec 32 := 128#32
  let c4_i32 : BitVec 32 := 4#32
  let c512_i32_24 : BitVec 32 := 512#32
  let v53 : BitVec 32 := Scalar.muli c4_i32 c512_i32_24
  let v54 : BitVec 32 := Scalar.addi c128_i32_25 v53
  v54
def k0_mult7 : BitVec 32 :=
  let c128_i32_29 : BitVec 32 := 128#32
  let c5_i32 : BitVec 32 := 5#32
  let c512_i32_28 : BitVec 32 := 512#32
  let v60 : BitVec 32 := Scalar.muli c5_i32 c512_i32_28
  let v61 : BitVec 32 := Scalar.addi c128_i32_29 v60
  v61
def k0_mult8 : BitVec 32 :=
  let c128_i32_33 : BitVec 32 := 128#32
  let c6_i32 : BitVec 32 := 6#32
  let c512_i32_32 : BitVec 32 := 512#32
  let v67 : BitVec 32 := Scalar.muli c6_i32 c512_i32_32
  let v68 : BitVec 32 := Scalar.addi c128_i32_33 v67
  v68
def k0_mult9 : BitVec 32 :=
  let c128_i32_37 : BitVec 32 := 128#32
  let c7_i32 : BitVec 32 := 7#32
  let c512_i32_36 : BitVec 32 := 512#32
  let v74 : BitVec 32 := Scalar.muli c7_i32 c512_i32_36
  let v75 : BitVec 32 := Scalar.addi c128_i32_37 v74
  v75
def k0_mult10 : BitVec 32 :=
  let c128_i32_41 : BitVec 32 := 128#32
  let c8_i32 : BitVec 32 := 8#32
  let c512_i32_40 : BitVec 32 := 512#32
  let v81 : BitVec 32 := Scalar.muli c8_i32 c512_i32_40
  let v82 : BitVec 32 := Scalar.addi c128_i32_41 v81
  v82
def k0_mult11 : BitVec 32 :=
  let c128_i32_45 : BitVec 32 := 128#32
  let c9_i32 : BitVec 32 := 9#32
  let c512_i32_44 : BitVec 32 := 512#32
  let v88 : BitVec 32 := Scalar.muli c9_i32 c512_i32_44
  let v89 : BitVec 32 := Scalar.addi c128_i32_45 v88
  v89
def k0_mult12 : BitVec 32 :=
  let c128_i32_49 : BitVec 32 := 128#32
  let c10_i32 : BitVec 32 := 10#32
  let c512_i32_48 : BitVec 32 := 512#32
  let v95 : BitVec 32 := Scalar.muli c10_i32 c512_i32_48
  let v96 : BitVec 32 := Scalar.addi c128_i32_49 v95
  v96
def k0_mult13 : BitVec 32 :=
  let c128_i32_53 : BitVec 32 := 128#32
  let c11_i32 : BitVec 32 := 11#32
  let c512_i32_52 : BitVec 32 := 512#32
  let v102 : BitVec 32 := Scalar.muli c11_i32 c512_i32_52
  let v103 : BitVec 32 := Scalar.addi c128_i32_53 v102
  v103
def k0_mult14 : BitVec 32 :=
  let c128_i32_57 : BitVec 32 := 128#32
  let c12_i32 : BitVec 32 := 12#32
  let c512_i32_56 : BitVec 32 := 512#32
  let v109 : BitVec 32 := Scalar.muli c12_i32 c512_i32_56
  let v110 : BitVec 32 := Scalar.addi c128_i32_57 v109
  v110
def k0_mult15 : BitVec 32 :=
  let c128_i32_61 : BitVec 32 := 128#32
  let c13_i32 : BitVec 32 := 13#32
  let c512_i32_60 : BitVec 32 := 512#32
  let v116 : BitVec 32 := Scalar.muli c13_i32 c512_i32_60
  let v117 : BitVec 32 := Scalar.addi c128_i32_61 v116
  v117
def k0_mult16 : BitVec 32 :=
  let c128_i32_65 : BitVec 32 := 128#32
  let c14_i32 : BitVec 32 := 14#32
  let c512_i32_64 : BitVec 32 := 512#32
  let v123 : BitVec 32 := Scalar.muli c14_i32 c512_i32_64
  let v124 : BitVec 32 := Scalar.addi c128_i32_65 v123
  v124
def k0_mult17 : BitVec 32 :=
  let c128_i32_69 : BitVec 32 := 128#32
  let c15_i32 : BitVec 32 := 15#32
  let c512_i32_68 : BitVec 32 := 512#32
  let v130 : BitVec 32 := Scalar.muli c15_i32 c512_i32_68
  let v131 : BitVec 32 := Scalar.addi c128_i32_69 v130
  v131
def k0_mult18 : BitVec 32 :=
  let c128_i32_73 : BitVec 32 := 128#32
  let c16_i32 : BitVec 32 := 16#32
  let c512_i32_72 : BitVec 32 := 512#32
  let v137 : BitVec 32 := Scalar.muli c16_i32 c512_i32_72
  let v138 : BitVec 32 := Scalar.addi c128_i32_73 v137
  v138
def k0_mult19 : BitVec 32 :=
  let c128_i32_77 : BitVec 32 := 128#32
  let c17_i32 : BitVec 32 := 17#32
  let c512_i32_76 : BitVec 32 := 512#32
  let v144 : BitVec 32 := Scalar.muli c17_i32 c512_i32_76
  let v145 : BitVec 32 := Scalar.addi c128_i32_77 v144
  v145
def k0_mult20 : BitVec 32 :=
  let c128_i32_81 : BitVec 32 := 128#32
  let c18_i32 : BitVec 32 := 18#32
  let c512_i32_80 : BitVec 32 := 512#32
  let v151 : BitVec 32 := Scalar.muli c18_i32 c512_i32_80
  let v152 : BitVec 32 := Scalar.addi c128_i32_81 v151
  v152
def k0_mult21 : BitVec 32 :=
  let c128_i32_85 : BitVec 32 := 128#32
  let c19_i32 : BitVec 32 := 19#32
  let c512_i32_84 : BitVec 32 := 512#32
  let v158 : BitVec 32 := Scalar.muli c19_i32 c512_i32_84
  let v159 : BitVec 32 := Scalar.addi c128_i32_85 v158
  v159
def k0_mult22 : BitVec 32 :=
  let c128_i32_89 : BitVec 32 := 128#32
  let c20_i32 : BitVec 32 := 20#32
  let c512_i32_88 : BitVec 32 := 512#32
  let v165 : BitVec 32 := Scalar.muli c20_i32 c512_i32_88
  let v166 : BitVec 32 := Scalar.addi c128_i32_89 v165
  v166
def k0_mult23 : BitVec 32 :=
  let c128_i32_93 : BitVec 32 := 128#32
  let c21_i32 : BitVec 32 := 21#32
  let c512_i32_92 : BitVec 32 := 512#32
  let v172 : BitVec 32 := Scalar.muli c21_i32 c512_i32_92
  let v173 : BitVec 32 := Scalar.addi c128_i32_93 v172
  v173
def k0_mult24 : BitVec 32 :=
  let c128_i32_97 : BitVec 32 := 128#32
  let c22_i32 : BitVec 32 := 22#32
  let c512_i32_96 : BitVec 32 := 512#32
  let v179 : BitVec 32 := Scalar.muli c22_i32 c512_i32_96
  let v180 : BitVec 32 := Scalar.addi c128_i32_97 v179
  v180
def k0_mult25 : BitVec 32 :=
  let c128_i32_101 : BitVec 32 := 128#32
  let c23_i32 : BitVec 32 := 23#32
  let c512_i32_100 : BitVec 32 := 512#32
  let v186 : BitVec 32 := Scalar.muli c23_i32 c512_i32_100
  let v187 : BitVec 32 := Scalar.addi c128_i32_101 v186
  v187
def k0_mult26 : BitVec 32 :=
  let c128_i32_105 : BitVec 32 := 128#32
  let c24_i32 : BitVec 32 := 24#32
  let c512_i32_104 : BitVec 32 := 512#32
  let v193 : BitVec 32 := Scalar.muli c24_i32 c512_i32_104
  let v194 : BitVec 32 := Scalar.addi c128_i32_105 v193
  v194
def k0_mult27 : BitVec 32 :=
  let c128_i32_109 : BitVec 32 := 128#32
  let c25_i32 : BitVec 32 := 25#32
  let c512_i32_108 : BitVec 32 := 512#32
  let v200 : BitVec 32 := Scalar.muli c25_i32 c512_i32_108
  let v201 : BitVec 32 := Scalar.addi c128_i32_109 v200
  v201
def k0_mult28 : BitVec 32 :=
  let c128_i32_113 : BitVec 32 := 128#32
  let c26_i32 : BitVec 32 := 26#32
  let c512_i32_112 : BitVec 32 := 512#32
  let v207 : BitVec 32 := Scalar.muli c26_i32 c512_i32_112
  let v208 : BitVec 32 := Scalar.addi c128_i32_113 v207
  v208
def k0_mult29 : BitVec 32 :=
  let c128_i32_117 : BitVec 32 := 128#32
  let c27_i32 : BitVec 32 := 27#32
  let c512_i32_116 : BitVec 32 := 512#32
  let v214 : BitVec 32 := Scalar.muli c27_i32 c512_i32_116
  let v215 : BitVec 32 := Scalar.addi c128_i32_117 v214
  v215
def k0_mult30 : BitVec 32 :=
  let c128_i32_121 : BitVec 32 := 128#32
  let c28_i32 : BitVec 32 := 28#32
  let c512_i32_120 : BitVec 32 := 512#32
  let v221 : BitVec 32 := Scalar.muli c28_i32 c512_i32_120
  let v222 : BitVec 32 := Scalar.addi c128_i32_121 v221
  v222
def k0_mult31 : BitVec 32 :=
  let c128_i32_125 : BitVec 32 := 128#32
  let c29_i32 : BitVec 32 := 29#32
  let c512_i32_124 : BitVec 32 := 512#32
  let v228 : BitVec 32 := Scalar.muli c29_i32 c512_i32_124
  let v229 : BitVec 32 := Scalar.addi c128_i32_125 v228
  v229
def k0_mult32 : BitVec 32 :=
  let c128_i32_129 : BitVec 32 := 128#32
  let c30_i32 : BitVec 32 := 30#32
  let c512_i32_128 : BitVec 32 := 512#32
  let v235 : BitVec 32 := Scalar.muli c30_i32 c512_i32_128
  let v236 : BitVec 32 := Scalar.addi c128_i32_129 v235
  v236
def k0_mult33 : BitVec 32 :=
  let c128_i32_133 : BitVec 32 := 128#32
  let c31_i32 : BitVec 32 := 31#32
  let c512_i32_132 : BitVec 32 := 512#32
  let v242 : BitVec 32 := Scalar.muli c31_i32 c512_i32_132
  let v243 : BitVec 32 := Scalar.addi c128_i32_133 v242
  v243
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x16512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  h_S1x256x128 : 0 < S1x256x128.numel
  shapeCasts_S1x256x128_S256x128 : S1x256x128.ShapeCasts S256x128
  bitsLt_bf16_f32 : FTy.bits .bf16 < FTy.bits .f32
  transposes_S256x128_p1_0_S128x256 : S256x128.Transposes [1, 0] S128x256
  reduces_S512x256_S256 : S512x256.Reduces [0] S256
  shapeCasts_S256_S1x256 : S256.ShapeCasts S1x256
  broadcasts_S1x256_S512x256 : S1x256.Broadcasts S512x256
  transposes_S512x256_p1_0_S256x512 : S512x256.Transposes [1, 0] S256x512
  inb_S1x256x16512_S1x256x128_0_0_0 : ∀ a, (![0, 0, 0] : Fin 3 → Nat) a + S1x256x128.size a ≤ S1x256x16512.size a
  shapeCasts_S256x128_S1x256x128 : S256x128.ShapeCasts S1x256x128
  concatenates_S256x128_S256x128_S256x128_S256x128_S256x512_d1 : Shape.Concatenates [S256x128, S256x128, S256x128, S256x128] S256x512 1
  h_S1x256x512 : 0 < S1x256x512.numel
  shapeCasts_S1x256x512_S256x512 : S1x256x512.ShapeCasts S256x512
  shapeCasts_S256x512_S1x256x512 : S256x512.ShapeCasts S1x256x512
  dot_S512x128_S128x256_S512x256_1_0_0_1_n_n_wf : DotDims.WF S512x128 S128x256 S512x256 [1] [0] [0] [1] [] []
  dot_S256x512_S512x128_S256x128_1_0_0_1_n_n_wf : DotDims.WF S256x512 S512x128 S256x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x128.size a ≤ S1x512x128.size a
  k0_mult2_dvd : 128 ∣ k0_mult2.toNat
  k0_off2_inb : ∀ (r : Fin 32), ∀ a, (k0_off2 (BitVec.ofNat 32 r.val)) a + S1x256x512.size a ≤ S1x256x16512.size a
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  k0_mult17_dvd : 128 ∣ k0_mult17.toNat
  k0_mult18_dvd : 128 ∣ k0_mult18.toNat
  k0_mult19_dvd : 128 ∣ k0_mult19.toNat
  k0_mult20_dvd : 128 ∣ k0_mult20.toNat
  k0_mult21_dvd : 128 ∣ k0_mult21.toNat
  k0_mult22_dvd : 128 ∣ k0_mult22.toNat
  k0_mult23_dvd : 128 ∣ k0_mult23.toNat
  k0_mult24_dvd : 128 ∣ k0_mult24.toNat
  k0_mult25_dvd : 128 ∣ k0_mult25.toNat
  k0_mult26_dvd : 128 ∣ k0_mult26.toNat
  k0_mult27_dvd : 128 ∣ k0_mult27.toNat
  k0_mult28_dvd : 128 ∣ k0_mult28.toNat
  k0_mult29_dvd : 128 ∣ k0_mult29.toNat
  k0_mult30_dvd : 128 ∣ k0_mult30.toNat
  k0_mult31_dvd : 128 ∣ k0_mult31.toNat
  k0_mult32_dvd : 128 ∣ k0_mult32.toNat
  k0_mult33_dvd : 128 ∣ k0_mult33.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S8x512x128.size a
  hwx0_0 : ∀ i : grid0.Coords, EltTy.bits .f32 = 32 ∨ (Rect.block (s := S8x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x16512.size a ≤ S8x512x16512.size a
  hwx0_1 : ∀ i : grid0.Coords, EltTy.bits .f32 = 32 ∨ (Rect.block (s := S8x512x16512) S1x256x16512.size (cc0_transform_1 i) (hinb0_1 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x16512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x128 : Shape := ⟨3, ![8, 512, 128]⟩
abbrev S8x512x512 : Shape := ⟨3, ![8, 512, 512]⟩
abbrev S_ : Shape := ⟨0, ![]⟩
abbrev S8x512 : Shape := ⟨2, ![8, 512]⟩
abbrev S8x1x512 : Shape := ⟨3, ![8, 1, 512]⟩
abbrev S1x8x1x512x1x128 : Shape := ⟨6, ![1, 8, 1, 512, 1, 128]⟩
abbrev S1x8x1x512x128x128 : Shape := ⟨6, ![1, 8, 1, 512, 128, 128]⟩
abbrev S8x512x16384 : Shape := ⟨3, ![8, 512, 16384]⟩
abbrev S8x512x16512 : Shape := ⟨3, ![8, 512, 16512]⟩

abbrev nBuf : Space → Nat
  | .hbm => 16
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S8x512x512, .f32⟩
  | .hbm, ⟨2, _⟩ => ⟨S8x512x512, .f32⟩
  | .hbm, ⟨3, _⟩ => ⟨S_, .f32⟩
  | .hbm, ⟨4, _⟩ => ⟨S8x512, .f32⟩
  | .hbm, ⟨5, _⟩ => ⟨S8x1x512, .f32⟩
  | .hbm, ⟨6, _⟩ => ⟨S_, .f32⟩
  | .hbm, ⟨7, _⟩ => ⟨S8x1x512, .f32⟩
  | .hbm, ⟨8, _⟩ => ⟨S8x1x512, .f32⟩
  | .hbm, ⟨9, _⟩ => ⟨S8x512x512, .f32⟩
  | .hbm, ⟨10, _⟩ => ⟨S8x512x512, .f32⟩
  | .hbm, ⟨11, _⟩ => ⟨S8x512x128, .f32⟩
  | .hbm, ⟨12, _⟩ => ⟨S1x8x1x512x1x128, .f32⟩
  | .hbm, ⟨13, _⟩ => ⟨S1x8x1x512x128x128, .f32⟩
  | .hbm, ⟨14, _⟩ => ⟨S8x512x16384, .f32⟩
  | .hbm, ⟨15, _⟩ => ⟨S8x512x16512, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  reducesTo_S8x512x512_S8x512_d1 : S8x512x512.ReducesTo [1] S8x512
  h_S_ : 0 < S_.numel
  bcast_S8x512_S8x1x512_0_2 : S8x512.BroadcastsInDim S8x1x512 (![0, 2] : Fin 2 → Fin S8x1x512.rank)
  bcast_S_S8x1x512 : S_.BroadcastsInDim S8x1x512 (![] : Fin 0 → Fin S8x1x512.rank)
  bcast_S8x1x512_S8x512x512_0_1_2 : S8x1x512.BroadcastsInDim S8x512x512 (![0, 1, 2] : Fin 3 → Fin S8x512x512.rank)
  shapeCasts_S8x512x128_S1x8x1x512x1x128 : S8x512x128.ShapeCasts S1x8x1x512x1x128
  bcast_S1x8x1x512x1x128_S1x8x1x512x128x128_0_1_2_3_4_5 : S1x8x1x512x1x128.BroadcastsInDim S1x8x1x512x128x128 (![0, 1, 2, 3, 4, 5] : Fin 6 → Fin S1x8x1x512x128x128.rank)
  shapeCasts_S1x8x1x512x128x128_S8x512x16384 : S1x8x1x512x128x128.ShapeCasts S8x512x16384
  concatenates_S8x512x128_S8x512x16384_S8x512x16512_d2 : Shape.Concatenates [S8x512x128, S8x512x16384] S8x512x16512 2
  dot_S8x512x128_S8x512x128_S8x512x512_2_2_1_1_0_0_wf : DotDims.WF S8x512x128 S8x512x128 S8x512x512 [2] [2] [1] [1] [0] [0]
  dot_S8x512x512_S8x512x128_S8x512x128_1_1_2_2_0_0_wf : DotDims.WF S8x512x512 S8x512x128 S8x512x128 [1] [1] [2] [2] [0] [0]

variable [Facts₀]

def dot_S8x512x128_S8x512x128_S8x512x512_2_2_1_1_0_0 : DotDims S8x512x128 S8x512x128 S8x512x512 where
  lhsContracting := [2]
  rhsContracting := [2]
  lhsNonContracting := [1]
  rhsNonContracting := [1]
  lhsBatch := [0]
  rhsBatch := [0]
  wf := dot_S8x512x128_S8x512x128_S8x512x512_2_2_1_1_0_0_wf
def dot_S8x512x512_S8x512x128_S8x512x128_1_1_2_2_0_0 : DotDims S8x512x512 S8x512x128 S8x512x128 where
  lhsContracting := [1]
  rhsContracting := [1]
  lhsNonContracting := [2]
  rhsNonContracting := [2]
  lhsBatch := [0]
  rhsBatch := [0]
  wf := dot_S8x512x512_S8x512x128_S8x512x128_1_1_2_2_0_0_wf

class Facts : Prop extends Facts₀ where

variable [Facts]
-- ==== Proof.Spec.lean ====
/-
  The function both programs compute, written once.

  For a key matrix `K` (512 rows of 128 features) and one query row `qv`, the score of key row `s` is the inner
  product `∑ f, K s f * qv f`; the weights are the exponentials of the scores divided by their sum plus a small
  constant (a softmax over the key rows that is neither shifted by the maximum nor exactly normalized); the
  attended vector is the weighted sum of the key rows. The output array holds, for batch `b` and step `i`, the 128
  features of `x b i` followed by 128 copies of the vector attended from query row `x b i` over the keys `x b`.
  Nothing here is evaluated: the small constant stays a word, and sums stay sums over `Fin`.
-/
import Idealize.ShloMosaic.PureOps.Ideal
import Idealize.ShloMosaic.Lib.ValueIdx

noncomputable section

namespace Cert.AttnSpec

open Idealize.ShloMosaic Idealize.ShloMosaic.ValueIdx
open scoped BigOperators

/-- The constant added to the sum of exponentials: the binary32 word nearest to 1e-7, as an extended real. -/
def eps : EReal := Ideal.ofBits .f32 0x33D6BF95#32

/-- The score of key row `s` against the query row. -/
def score (K : Fin 512 → Fin 128 → EReal) (qv : Fin 128 → EReal) (s : Fin 512) : EReal :=
  ∑ f : Fin 128, K s f * qv f

/-- The sum over the key rows of the exponentials of the scores, plus the constant. -/
def denom (K : Fin 512 → Fin 128 → EReal) (qv : Fin 128 → EReal) : EReal :=
  (∑ s : Fin 512, Ideal.exp (score K qv s)) + eps

/-- The weight of key row `s`. -/
def weight (K : Fin 512 → Fin 128 → EReal) (qv : Fin 128 → EReal) (s : Fin 512) : EReal :=
  Ideal.div (Ideal.exp (score K qv s)) (denom K qv)

/-- Feature `f` of the attended vector: the weighted sum of the key rows. -/
def ctx (K : Fin 512 → Fin 128 → EReal) (qv : Fin 128 → EReal) (f : Fin 128) : EReal :=
  ∑ s : Fin 512, weight K qv s * K s f

/-- The keys of batch `b`. -/
def keys (x : (⟨3, ![8, 512, 128]⟩ : Shape).Idx → EReal) (b : Fin 8) : Fin 512 → Fin 128 → EReal :=
  fun s f => x (ix3 b s f)

/-- Lane `l` of the output row of batch `b`, step `i`: below 128 the input itself, from 128 on the attended
    vector's feature `(l - 128) mod 128`. -/
def outRow (x : (⟨3, ![8, 512, 128]⟩ : Shape).Idx → EReal) (b : Fin 8) (i : Fin 512) (l : Fin 16512) : EReal :=
  if h : l.val < 128 then x (ix3 b i ⟨l.val, h⟩)
  else ctx (keys x b) (keys x b i) ⟨(l.val - 128) % 128, Nat.mod_lt _ (by decide)⟩

/-- The whole output array as a function of the input array. -/
def out (x : (⟨3, ![8, 512, 128]⟩ : Shape).Idx → EReal) : (⟨3, ![8, 512, 16512]⟩ : Shape).Idx → EReal :=
  fun j => outRow x (j 0) (j 1) (j 2)

theorem out_ix3 (x : (⟨3, ![8, 512, 128]⟩ : Shape).Idx → EReal) (b : Fin 8) (i : Fin 512) (l : Fin 16512) :
    out x (ix3 b i l) = outRow x b i l := rfl

end Cert.AttnSpec

end
-- ==== Proof.RefG.lean ====
/-
  The reference, read index by index, is the function `out` of the specification.

  The reference forms all 512 x 512 scores of a batch at once (entry (s, i) is the score of key row `s` against query
  row `i`), exponentiates, sums each column over `s`, adds the constant, divides, and contracts the weights with the
  keys over `s`. The repetition is a reshape to six axes, a broadcast along a new axis of extent 128, and a reshape
  back: lane `l'` of the repeated part sits at (l' / 128, l' % 128) of the last two axes, and the broadcast forgets
  the first of the two, so it holds feature `l' % 128`. The final concatenation puts the input in lanes below 128.
-/
import proofs.«126900_j19670950216611_2_alg».proof.Proof.Gen.ReferenceIdeal.Read
import proofs.«126900_j19670950216611_2_alg».proof.Proof.Spec
import Idealize.ShloMosaic.Lib.ValueIdxRank6

noncomputable section

namespace Cert.RefAttn

open Cert.ReferenceIdeal Cert.ReferenceIdeal.Read Cert.AttnSpec
open Idealize.ShloMosaic Idealize.ShloMosaic.ValueIdx
open scoped BigOperators

variable (x : (⟨3, ![8, 512, 128]⟩ : Shape).Idx → EReal)

/-- The first contraction at (b, s, i): the score of key row `s` against query row `i`. -/
theorem ref_score (b : Fin 8) (s i : Fin 512) :
    val_main_v0 (F := Ideal) x (ix3 b s i) = score (keys x b) (keys x b i) s := by
  rw [val_main_v0_apply]
  unfold score keys
  refine Finset.sum_congr rfl fun f _ => ?_
  have el : lidx_main_v0 (ix3 b s i) f = ix3 b s f := funext fun a => Fin.ext (by
    match a with | ⟨0, _⟩ => rfl | ⟨1, _⟩ => rfl | ⟨2, _⟩ => rfl)
  have er : ridx_main_v0 (ix3 b s i) f = ix3 b i f := funext fun a => Fin.ext (by
    match a with | ⟨0, _⟩ => rfl | ⟨1, _⟩ => rfl | ⟨2, _⟩ => rfl)
  rw [el, er]

/-- Its exponential. -/
theorem ref_exp (b : Fin 8) (s i : Fin 512) :
    val_main_v1 (F := Ideal) x (ix3 b s i) = Ideal.exp (score (keys x b) (keys x b i) s) := by
  rw [val_main_v1_apply, ref_score]
  rfl

/-- The column sum over the key rows: the initial value is zero. -/
theorem ref_sum (b : Fin 8) (i : Fin 512) :
    val_main_v2 (F := Ideal) x (ix2 b i) = ∑ s : Fin 512, Ideal.exp (score (keys x b) (keys x b i) s) := by
  rw [val_main_v2_apply, val_main_cst_apply, Ideal.ofBits_def, Ideal.ofBits_zero_f32, zero_add]
  refine Finset.sum_congr rfl fun s _ => ?_
  have e : idx_main_v2 (ix2 b i) s = ix3 b s i := funext fun a => Fin.ext (by
    match a with | ⟨0, _⟩ => rfl | ⟨1, _⟩ => rfl | ⟨2, _⟩ => rfl)
  rw [e, ref_exp]

/-- The denominator of column `i`. -/
theorem ref_denom (b : Fin 8) (i : Fin 512) :
    val_main_v5 (F := Ideal) x (ix3 b (0 : Fin 1) i) = denom (keys x b) (keys x b i) := by
  have e : idx_main_v3 (ix3 b (0 : Fin 1) i) = ix2 b i := funext fun a => Fin.ext (by
    match a with | ⟨0, _⟩ => rfl | ⟨1, _⟩ => rfl)
  rw [val_main_v5_apply, val_main_v3_apply, val_main_v4_apply, val_main_cst_0_apply, e, ref_sum]
  rfl

/-- The weight at (b, s, i). -/
theorem ref_weight (b : Fin 8) (s i : Fin 512) :
    val_main_v7 (F := Ideal) x (ix3 b s i) = weight (keys x b) (keys x b i) s := by
  have e : idx_main_v6 (ix3 b s i) = ix3 b (0 : Fin 1) i := funext fun a => Fin.ext (by
    match a with | ⟨0, _⟩ => rfl | ⟨1, _⟩ => rfl | ⟨2, _⟩ => rfl)
  rw [val_main_v7_apply, val_main_v6_apply, e, ref_exp, ref_denom]
  rfl

/-- The second contraction at (b, i, f): feature `f` of the vector attended from query row `i`. -/
theorem ref_ctx (b : Fin 8) (i : Fin 512) (f : Fin 128) :
    val_main_v8 (F := Ideal) x (ix3 b i f) = ctx (keys x b) (keys x b i) f := by
  rw [val_main_v8_apply]
  unfold ctx
  refine Finset.sum_congr rfl fun s _ => ?_
  have el : lidx_main_v8 (ix3 b i f) s = ix3 b s i := funext fun a => Fin.ext (by
    match a with | ⟨0, _⟩ => rfl | ⟨1, _⟩ => rfl | ⟨2, _⟩ => rfl)
  have er : ridx_main_v8 (ix3 b i f) s = ix3 b s f := funext fun a => Fin.ext (by
    match a with | ⟨0, _⟩ => rfl | ⟨1, _⟩ => rfl | ⟨2, _⟩ => rfl)
  rw [el, er, ref_weight]
  rfl

/-- The repeated part at lane `l'`: feature `l' % 128` of the attended vector. -/
theorem ref_tiled (b : Fin 8) (i : Fin 512) (l' : Fin 16384) :
    val_main_v11 (F := Ideal) x (ix3 b i l')
      = ctx (keys x b) (keys x b i) ⟨l'.val % 128, Nat.mod_lt _ (by decide)⟩ := by
  have hl := l'.isLt
  unfold val_main_v11
  refine (shapeCast_apply _ _ (ix3 b i l')
    (ix6 (0 : Fin 1) b (0 : Fin 1) i (⟨l'.val / 128, by omega⟩ : Fin 128) (⟨l'.val % 128, Nat.mod_lt _ (by decide)⟩ : Fin 128)) ?_).trans ?_
  · rw [Shape.rowMajor_val_six, Shape.rowMajor_val_three]
    show ((((0 * 8 + b.val) * 1 + 0) * 512 + i.val) * 128 + l'.val / 128) * 128 + l'.val % 128
      = (b.val * 512 + i.val) * 16384 + l'.val
    omega
  · have e : idx_main_v10 (ix6 (0 : Fin 1) b (0 : Fin 1) i (⟨l'.val / 128, by omega⟩ : Fin 128) (⟨l'.val % 128, Nat.mod_lt _ (by decide)⟩ : Fin 128))
        = ix6 (0 : Fin 1) b (0 : Fin 1) i (0 : Fin 1) (⟨l'.val % 128, Nat.mod_lt _ (by decide)⟩ : Fin 128) := funext fun a => Fin.ext (by
      match a with | ⟨0, _⟩ => rfl | ⟨1, _⟩ => rfl | ⟨2, _⟩ => rfl | ⟨3, _⟩ => rfl | ⟨4, _⟩ => rfl | ⟨5, _⟩ => rfl)
    rw [val_main_v10_apply, e]
    unfold val_main_v9
    refine (shapeCast_apply _ _ _ (ix3 b i (⟨l'.val % 128, Nat.mod_lt _ (by decide)⟩ : Fin 128)) ?_).trans (ref_ctx x b i _)
    rw [Shape.rowMajor_val_six, Shape.rowMajor_val_three]
    show (b.val * 512 + i.val) * 128 + l'.val % 128
      = ((((0 * 8 + b.val) * 1 + 0) * 512 + i.val) * 1 + 0) * 128 + l'.val % 128
    omega

/-- The reference's result array is `out` of its argument. -/
theorem ref_out : val_main_v12 (F := Ideal) x = out x := by
  funext j
  obtain ⟨b, i, l, rfl⟩ : ∃ (b : Fin 8) (i : Fin 512) (l : Fin 16512), j = ix3 b i l := ⟨j 0, j 1, j 2, eq_ix3 j⟩
  have hl := l.isLt
  rw [out_ix3]
  unfold outRow val_main_v12
  by_cases h : l.val < 128
  · rw [dif_pos h]
    exact concatenate_pair_apply_left _ x (val_main_v11 (F := Ideal) x) _ (ix3 b i l) rfl (ix3 b i ⟨l.val, h⟩)
      (fun a => by match a with | ⟨0, _⟩ => rfl | ⟨1, _⟩ => rfl | ⟨2, _⟩ => rfl)
  · rw [dif_neg h]
    refine (concatenate_pair_apply_right _ x (val_main_v11 (F := Ideal) x) _ (ix3 b i l) rfl rfl
      (ix3 b i (⟨l.val - 128, by omega⟩ : Fin 16384))
      (fun a hne => by
        match a with
        | ⟨0, _⟩ => rfl
        | ⟨1, _⟩ => rfl
        | ⟨2, _⟩ => exact absurd rfl hne)
      (by show (l.val - 128) + 128 = l.val; omega)).trans ?_
    exact ref_tiled x b i _

end Cert.RefAttn

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.Payload.lean ====
/-
  The kernel's computed tile, read index by index.

  At a grid point the body holds the whole key block of one batch (512 rows) and the query tile of 256 rows sliced
  from it. It forms the 512 x 256 scores as a matrix product with the transposed query tile, exponentiates, sums each
  column over the key rows, adds the constant, divides, transposes the weights and contracts them with the keys. A
  change of float format is the identity on extended reals, so the body's entries are the specification's `score`,
  `denom`, `weight` and `ctx` of the block's rows. Four copies of the 256 x 128 result are joined along the lanes:
  lane `l` of the joined tile is feature `l % 128`.
-/
import proofs.«126900_j19670950216611_2_alg».proof.Proof.Gen.KernelIdeal.Skeleton
import proofs.«126900_j19670950216611_2_alg».proof.Proof.Spec
import proofs.«126900_j19670950216611_2_alg».proof.Proof.LibDense
import Idealize.ShloMosaic.Lib.Pipeline.Value
import Idealize.ShloMosaic.Lib.ValueLayout
import Idealize.ShloMosaic.PureOps.Ideal.Laws

noncomputable section

namespace Cert.KernelAttn

open Cert.KernelIdeal Cert.KernelIdeal.Gen Cert.AttnSpec
open Idealize.ShloMosaic Idealize.ShloMosaic.ValueIdx
open scoped BigOperators

variable (v2 : Vec Ideal S1x512x128 .f32) (v5 : Vec Ideal S1x256x128 .f32)

/-- The key block's rows. -/
def blockKeys : Fin 512 → Fin 128 → EReal := fun s f => v2 (ix3 (0 : Fin 1) s f)
/-- Row `q` of the query tile. -/
def tileRow (q : Fin 256) : Fin 128 → EReal := fun f => v5 (ix3 (0 : Fin 1) q f)

/-! ## The body's intermediate values, named -/

/-- The keys as the matrix unit takes them. -/
def keysM : FVec Ideal S512x128 .bf16 :=
  truncf .bf16 (shapeCast S512x128 v2 shapeCasts_S1x512x128_S512x128) bitsLt_bf16_f32
/-- The query tile transposed. -/
def queryT : FVec Ideal S128x256 .bf16 :=
  transpose S128x256 [1, 0] (truncf .bf16 (k0_pay4 v5) bitsLt_bf16_f32) transposes_S256x128_p1_0_S128x256
/-- The scores. -/
def scoresM : FVec Ideal S512x256 .f32 :=
  matmul dot_S512x128_S128x256_S512x256_1_0_0_1_n_n none (keysM v2) (queryT v5) (constant S512x256 .f32 0x00000000#32)
/-- Their exponentials. -/
def expM : FVec Ideal S512x256 .f32 := exp (scoresM v2 v5)
/-- The column sums plus the constant, as one row. -/
def denRow : FVec Ideal S1x256 .f32 :=
  addf (shapeCast S1x256 (multiReduction .add [0] S256 (expM v2 v5) 0x00000000#32 reduces_S512x256_S256 (.inl rfl) rfl) shapeCasts_S256_S1x256)
    (broadcast S1x256 (Scalar.ofBits .f32 0x33D6BF95#32))
/-- The weights. -/
def weightsM : FVec Ideal S512x256 .f32 :=
  divf (expM v2 v5) (broadcastTo S512x256 (denRow v2 v5) broadcasts_S1x256_S512x256)
/-- The weights transposed. -/
def weightsT : FVec Ideal S256x512 .bf16 :=
  transpose S256x512 [1, 0] (truncf .bf16 (weightsM v2 v5) bitsLt_bf16_f32) transposes_S512x256_p1_0_S256x512
/-- The attended vectors of the tile's 256 rows. -/
def ctxM : FVec Ideal S256x128 .f32 :=
  matmul dot_S256x512_S512x128_S256x128_1_0_0_1_n_n none (weightsT v2 v5) (keysM v2) (constant S256x128 .f32 0x00000000#32)

/-- The joined tile is four copies of the attended vectors side by side. -/
theorem pay6_eq : k0_pay6 (F := Ideal) v2 v5
    = concatenate S256x512 1 [⟨S256x128, ctxM v2 v5⟩, ⟨S256x128, ctxM v2 v5⟩, ⟨S256x128, ctxM v2 v5⟩, ⟨S256x128, ctxM v2 v5⟩]
        concatenates_S256x128_S256x128_S256x128_S256x128_S256x512_d1 := rfl

/-! ## Each named value at an index -/

theorem keysM_apply (s : Fin 512) (f : Fin 128) : keysM v2 (ix2 s f) = blockKeys v2 s f :=
  shapeCast_1ab_ab_apply v2 shapeCasts_S1x512x128_S512x128 s f

theorem queryT_apply (f : Fin 128) (q : Fin 256) : queryT v5 (ix2 f q) = tileRow v5 q f :=
  (transpose_ix2_apply _ transposes_S256x128_p1_0_S128x256 f q).trans
    (shapeCast_1ab_ab_apply v5 shapeCasts_S1x256x128_S256x128 q f)

/-! The operand positions of the two matrix products: rows against columns, no batch axis. -/

theorem d1_l0 (j : S512x256.Idx) (k : dot_S512x128_S128x256_S512x256_1_0_0_1_n_n.contr.Idx) :
    (dot_S512x128_S128x256_S512x256_1_0_0_1_n_n.lhsIdx j k 0).val = (j 0).val := by
  unfold DotDims.lhsIdx
  rw [dif_neg (show ¬(0 : Fin S512x128.rank) ∈ dot_S512x128_S128x256_S512x256_1_0_0_1_n_n.lhsBatch by decide),
    dif_pos (show (0 : Fin S512x128.rank) ∈ dot_S512x128_S128x256_S512x256_1_0_0_1_n_n.lhsNonContracting by decide)]
  rfl
theorem d1_l1 (j : S512x256.Idx) (k : dot_S512x128_S128x256_S512x256_1_0_0_1_n_n.contr.Idx) :
    (dot_S512x128_S128x256_S512x256_1_0_0_1_n_n.lhsIdx j k 1).val = (k ⟨0, by decide⟩).val :=
  dot_S512x128_S128x256_S512x256_1_0_0_1_n_n.lhsIdx_val_of_single rfl j k
theorem d1_r0 (j : S512x256.Idx) (k : dot_S512x128_S128x256_S512x256_1_0_0_1_n_n.contr.Idx) :
    (dot_S512x128_S128x256_S512x256_1_0_0_1_n_n.rhsIdx j k 0).val = (k ⟨0, by decide⟩).val :=
  dot_S512x128_S128x256_S512x256_1_0_0_1_n_n.rhsIdx_val_of_single rfl j k
theorem d1_r1 (j : S512x256.Idx) (k : dot_S512x128_S128x256_S512x256_1_0_0_1_n_n.contr.Idx) :
    (dot_S512x128_S128x256_S512x256_1_0_0_1_n_n.rhsIdx j k 1).val = (j 1).val := by
  unfold DotDims.rhsIdx
  rw [dif_neg (show ¬(1 : Fin S128x256.rank) ∈ dot_S512x128_S128x256_S512x256_1_0_0_1_n_n.rhsBatch by decide),
    dif_pos (show (1 : Fin S128x256.rank) ∈ dot_S512x128_S128x256_S512x256_1_0_0_1_n_n.rhsNonContracting by decide)]
  rfl

theorem d2_l0 (j : S256x128.Idx) (k : dot_S256x512_S512x128_S256x128_1_0_0_1_n_n.contr.Idx) :
    (dot_S256x512_S512x128_S256x128_1_0_0_1_n_n.lhsIdx j k 0).val = (j 0).val := by
  unfold DotDims.lhsIdx
  rw [dif_neg (show ¬(0 : Fin S256x512.rank) ∈ dot_S256x512_S512x128_S256x128_1_0_0_1_n_n.lhsBatch by decide),
    dif_pos (show (0 : Fin S256x512.rank) ∈ dot_S256x512_S512x128_S256x128_1_0_0_1_n_n.lhsNonContracting by decide)]
  rfl
theorem d2_l1 (j : S256x128.Idx) (k : dot_S256x512_S512x128_S256x128_1_0_0_1_n_n.contr.Idx) :
    (dot_S256x512_S512x128_S256x128_1_0_0_1_n_n.lhsIdx j k 1).val = (k ⟨0, by decide⟩).val :=
  dot_S256x512_S512x128_S256x128_1_0_0_1_n_n.lhsIdx_val_of_single rfl j k
theorem d2_r0 (j : S256x128.Idx) (k : dot_S256x512_S512x128_S256x128_1_0_0_1_n_n.contr.Idx) :
    (dot_S256x512_S512x128_S256x128_1_0_0_1_n_n.rhsIdx j k 0).val = (k ⟨0, by decide⟩).val :=
  dot_S256x512_S512x128_S256x128_1_0_0_1_n_n.rhsIdx_val_of_single rfl j k
theorem d2_r1 (j : S256x128.Idx) (k : dot_S256x512_S512x128_S256x128_1_0_0_1_n_n.contr.Idx) :
    (dot_S256x512_S512x128_S256x128_1_0_0_1_n_n.rhsIdx j k 1).val = (j 1).val := by
  unfold DotDims.rhsIdx
  rw [dif_neg (show ¬(1 : Fin S512x128.rank) ∈ dot_S256x512_S512x128_S256x128_1_0_0_1_n_n.rhsBatch by decide),
    dif_pos (show (1 : Fin S512x128.rank) ∈ dot_S256x512_S512x128_S256x128_1_0_0_1_n_n.rhsNonContracting by decide)]
  rfl

/-- The score of key row `s` against tile row `q`. -/
theorem scoresM_apply (s : Fin 512) (q : Fin 256) :
    scoresM v2 v5 (ix2 s q) = score (blockKeys v2) (tileRow v5 q) s := by
  unfold scoresM
  refine (Cert.LibDense.matmul_zero_plain dot_S512x128_S128x256_S512x256_1_0_0_1_n_n none rfl rfl
    d1_l0 d1_l1 d1_r0 d1_r1 (keysM v2) (queryT v5) s q).trans ?_
  unfold Cert.LibDense.dense score
  exact Finset.sum_congr rfl fun f _ => congrArg₂ (· * ·) (keysM_apply v2 s f) (queryT_apply v5 f q)

theorem expM_apply (s : Fin 512) (q : Fin 256) :
    expM v2 v5 (ix2 s q) = Ideal.exp (score (blockKeys v2) (tileRow v5 q) s) :=
  congrArg Ideal.exp (scoresM_apply v2 v5 s q)

/-- A sum over the rows of a 512 x 256 matrix, read at column `q`. -/
theorem colsum_apply (e : FVec Ideal S512x256 .f32) (q : Fin 256) :
    multiReduction .add [0] S256 e 0x00000000#32 reduces_S512x256_S256 (.inl rfl) rfl (ix1 q) = ∑ s : Fin 512, e (ix2 s q) := by
  refine (Ideal.multiReduction_add_single e 0x00000000#32 reduces_S512x256_S256 (.inl rfl) rfl (ix1 q)).trans ?_
  exact Finset.sum_congr rfl fun s _ => congrArg e (funext fun a => Fin.ext (by
    match a with | ⟨0, _⟩ => rfl | ⟨1, _⟩ => rfl))

/-- The denominator of tile row `q`. -/
theorem denRow_apply (q : Fin 256) : denRow v2 v5 (ix2 (0 : Fin 1) q) = denom (blockKeys v2) (tileRow v5 q) := by
  unfold denRow denom
  rw [addf_apply, broadcast_apply, shapeCast_a_1a_apply, colsum_apply]
  refine congrArg₂ (· + ·) (Finset.sum_congr rfl fun s _ => expM_apply v2 v5 s q) rfl

/-- The weight of key row `s` for tile row `q`. -/
theorem weightsM_apply (s : Fin 512) (q : Fin 256) :
    weightsM v2 v5 (ix2 s q) = weight (blockKeys v2) (tileRow v5 q) s := by
  unfold weightsM weight
  rw [divf_apply, broadcastTo_1b_ab_apply, expM_apply, denRow_apply]

theorem weightsT_apply (q : Fin 256) (s : Fin 512) :
    weightsT v2 v5 (ix2 q s) = weight (blockKeys v2) (tileRow v5 q) s :=
  (transpose_ix2_apply _ transposes_S512x256_p1_0_S256x512 q s).trans (weightsM_apply v2 v5 s q)

/-- Feature `f` of the vector attended from tile row `q`. -/
theorem ctxM_apply (q : Fin 256) (f : Fin 128) :
    ctxM v2 v5 (ix2 q f) = ctx (blockKeys v2) (tileRow v5 q) f := by
  unfold ctxM
  refine (Cert.LibDense.matmul_zero_plain dot_S256x512_S512x128_S256x128_1_0_0_1_n_n none rfl rfl
    d2_l0 d2_l1 d2_r0 d2_r1 (weightsT v2 v5) (keysM v2) q f).trans ?_
  unfold Cert.LibDense.dense ctx
  exact Finset.sum_congr rfl fun s _ => congrArg₂ (· * ·) (weightsT_apply v2 v5 q s) (keysM_apply v2 s f)

/-- Lane `l` of the joined tile, row `q`: feature `l % 128` of the attended vector. -/
theorem pay6_apply (q : Fin 256) (l : Fin 512) :
    k0_pay6 (F := Ideal) v2 v5 (ix2 q l)
      = ctx (blockKeys v2) (tileRow v5 q) ⟨l.val % 128, Nat.mod_lt _ (by decide)⟩ := by
  rw [pay6_eq]
  refine (concatenate_replicate_apply (t := S256x512) (s₁ := S256x128) (1 : Fin 2) 4 (ctxM v2 v5) concatenates_S256x128_S256x128_S256x128_S256x128_S256x512_d1 rfl
    (ix2 q l) (ix2 q (⟨l.val % 128, Nat.mod_lt _ (by decide)⟩ : Fin 128)) rfl
    (fun a hne => by
      match a with
      | ⟨0, _⟩ => rfl
      | ⟨1, _⟩ => exact absurd rfl hne)).trans ?_
  exact ctxM_apply v2 v5 q _

end Cert.KernelAttn

end
-- ==== Proof.Tile.lean ====
/-
  One grid point's output block as a function of the block index, and the body's stores as restrictions of it.

  The block has 256 rows of 16512 lanes. Lanes below 128 hold the query tile's row; lane `l` from 128 on holds
  feature `(l - 128) % 128` of the vector attended from that row. The body writes the first 128 lanes in one store
  and the rest in 32 stores of 512 lanes each, at lane offsets 128 + 512 r: a store at such an offset, of the joined
  tile whose lane `l` is feature `l % 128`, writes feature `(off + l - 128) % 128 = l % 128` at lane `off + l`.
-/
import proofs.«126900_j19670950216611_2_alg».proof.Proof.Payload

noncomputable section

namespace Cert.KernelAttn

open Cert.KernelIdeal Cert.KernelIdeal.Gen Cert.AttnSpec
open Idealize.ShloMosaic Idealize.ShloMosaic.ValueIdx
open scoped BigOperators

variable (v2 : Vec Ideal S1x512x128 .f32) (v5 : Vec Ideal S1x256x128 .f32)

/-- Row `q`, lane `l` of the block. -/
def tileAt (q : Fin 256) (l : Fin 16512) : EReal :=
  if h : l.val < 128 then v5 (ix3 (0 : Fin 1) q ⟨l.val, h⟩)
  else ctx (blockKeys v2) (tileRow v5 q) ⟨(l.val - 128) % 128, Nat.mod_lt _ (by decide)⟩

/-- The block as a function of its index. -/
def tileFn : S1x256x16512.Idx → EReal := fun y => tileAt v2 v5 (y 1) (y 2)

/-- A store of the joined tile, 512 lanes wide, at a lane offset that is 128 plus a multiple of 512, writes the
    block's values. -/
theorem wide_piece {off : ℕ} (h1 : 128 ≤ off) (h2 : (off - 128) % 512 = 0)
    (inb : ∀ a, (![0, 0, off] : Fin 3 → ℕ) a + (![1, 256, 512] : Fin 3 → ℕ) a ≤ S1x256x16512.size a)
    (u : Fin 1) (q : Fin 256) (l : Fin 512) :
    shapeCast S1x256x512 (k0_pay6 (F := Ideal) v2 v5) shapeCasts_S256x512_S1x256x512 (ix3 u q l)
      = tileFn v2 v5 ((Rect.unit (s := S1x256x16512) ![0, 0, off] ![1, 256, 512] inb).emb (ix3 u q l)) := by
  have hl := l.isLt
  have hb : off + 512 ≤ 16512 := inb 2
  have e1 : (Rect.unit (s := S1x256x16512) ![0, 0, off] ![1, 256, 512] inb).emb (ix3 u q l) 1 = q :=
    Fin.ext (by show 0 + 1 * q.val = q.val; omega)
  have e2 : (Rect.unit (s := S1x256x16512) ![0, 0, off] ![1, 256, 512] inb).emb (ix3 u q l) 2
      = (⟨off + l.val, by omega⟩ : Fin 16512) :=
    Fin.ext (by show off + 1 * l.val = off + l.val; omega)
  unfold tileFn
  rw [e1, e2, shapeCast_ab_1ab_apply, pay6_apply]
  unfold tileAt
  rw [dif_neg (by show ¬ off + l.val < 128; omega)]
  exact congrArg (ctx (blockKeys v2) (tileRow v5 q)) (Fin.ext (by
    show l.val % 128 = (off + l.val - 128) % 128
    omega))

/-- The store of the query tile into the first 128 lanes writes the block's values. -/
theorem narrow_piece
    (inb : ∀ a, (![0, 0, 0] : Fin 3 → ℕ) a + (![1, 256, 128] : Fin 3 → ℕ) a ≤ S1x256x16512.size a)
    (u : Fin 1) (q : Fin 256) (l : Fin 128) :
    k0_pay5 (F := Ideal) v5 (ix3 u q l)
      = tileFn v2 v5 ((Rect.unit (s := S1x256x16512) ![0, 0, 0] ![1, 256, 128] inb).emb (ix3 u q l)) := by
  have hl := l.isLt
  obtain rfl : u = 0 := Subsingleton.elim _ _
  have e1 : (Rect.unit (s := S1x256x16512) ![0, 0, 0] ![1, 256, 128] inb).emb (ix3 (0 : Fin 1) q l) 1 = q :=
    Fin.ext (by show 0 + 1 * q.val = q.val; omega)
  have e2 : (Rect.unit (s := S1x256x16512) ![0, 0, 0] ![1, 256, 128] inb).emb (ix3 (0 : Fin 1) q l) 2
      = (⟨l.val, by omega⟩ : Fin 16512) :=
    Fin.ext (by show 0 + 1 * l.val = l.val; omega)
  unfold tileFn
  rw [e1, e2]
  unfold tileAt
  rw [dif_pos (show l.val < 128 from hl)]
  unfold k0_pay5 k0_pay4
  rw [shapeCast_shapeCast]

end Cert.KernelAttn

end
-- ==== Proof.Block.lean ====
/-
  What one grid point leaves in the output's staging buffer.

  The body's 33 stores tile the 256 x 16512 block, and each store's value is the block function of the tile module
  restricted to the store's rectangle: the first over lanes 0 to 127, the other 32 over 512 lanes each from lane
  128 + 512 r. So the buffer, read back after the stores, is that function everywhere, whatever it held before. Its
  two arguments are what the body loaded: the whole key block, and the 256 query rows starting at row 256 times the
  point's second coordinate.
-/
import proofs.«126900_j19670950216611_2_alg».proof.Proof.Gen.KernelIdeal.Frame
import proofs.«126900_j19670950216611_2_alg».proof.Proof.Tile
import Idealize.ShloMosaic.Lib.Pipeline.Value
import Idealize.ShloMosaic.Lib.Tactic

noncomputable section

namespace Cert.KernelAttn

open Cert.KernelIdeal Cert.KernelIdeal.Gen Cert.AttnSpec
open Idealize.ShloMosaic Idealize.ShloMosaic.ValueIdx Idealize.ShloMosaic.TcCoe Idealize.ShloMosaic.Tactic
open Idealize.SL.Sem

/-- The key block as the body loads it. -/
abbrev loadedKeys (x0 : Vec Ideal S1x512x128 .f32) : Vec Ideal S1x512x128 .f32 :=
  View.ld x0 (Rect.unit (s := S1x512x128) ![0, 0, 0] S1x512x128.size inb_S1x512x128_S1x512x128_0_0_0)

/-- The query tile as the body loads it, at the point `i`. -/
abbrev loadedTile (i : grid0.Coords) (x0 : Vec Ideal S1x512x128 .f32) : Vec Ideal S1x256x128 .f32 :=
  View.ld x0 (Rect.unit (s := S1x512x128) (k0_off1 i) S1x256x128.size (k0_off1_inb i))

set_option maxHeartbeats 1000000 in
/-- After the body, the output's staging buffer reads the block function of what the body loaded. -/
theorem out_eq (c : Dev nD) (i : grid0.Coords) (arg2 : Memref sig .tc .vmem S1x512x128 .f32) (harg2 : arg2.IsWhole)
    (arg3 : Memref sig .tc .vmem S1x256x16512 .f32) (harg3 : arg3.IsWhole) (x0 : Vec Ideal S1x512x128 .f32) :
    out0_A_1 (F := Ideal) c i arg2 harg2 arg3 harg3 x0 = tileFn (loadedKeys x0) (loadedTile i x0) := by
  funext y
  unfold out0_A_1
  refine View.read_writes_apply_of_pieces _ _ _ _ ?_ y (cover0_A_1 c i arg2 harg2 arg3 harg3 x0 y)
  unfold kernelRun0_A
  dsimp only
  sl_unfold_run_names
  simp only [View.readAt_eq_ld, harg2.read_unread]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro x
    dsimp only at x ⊢
    first
    | (obtain ⟨u, q, l, rfl⟩ : ∃ (u : Fin 1) (q : Fin 256) (l : Fin 512), x = ix3 u q l := ⟨x 0, x 1, x 2, eq_ix3 x⟩
       exact wide_piece _ _ (by decide) (by decide) _ u q l)
    | (obtain ⟨u, q, l, rfl⟩ : ∃ (u : Fin 1) (q : Fin 256) (l : Fin 128), x = ix3 u q l := ⟨x 0, x 1, x 2, eq_ix3 x⟩
       exact narrow_piece _ _ _ u q l)

end Cert.KernelAttn

end
-- ==== Proof.Array.lean ====
/-
  From the blocks to the whole output array.

  Grid point (b, i₁) stages the keys of batch `b` (block (b, 0, 0) of the input) and writes block (b, i₁, 0) of the
  output: rows 256 i₁ to 256 i₁ + 255 of batch `b`, all lanes. The query tile the body slices out of the staged keys
  starts at row 256 i₁, so row `q` of the tile is row 256 i₁ + q of the batch, and the block function of the tile
  module, read at (q, l), is the specification's output row (b, 256 i₁ + q) at lane `l`. The sixteen blocks cover the
  output array, so after the run the array is the specification's function of the input array.
-/
import proofs.«126900_j19670950216611_2_alg».proof.Proof.Gen.KernelIdeal.Value
import proofs.«126900_j19670950216611_2_alg».proof.Proof.Block

noncomputable section

namespace Cert.KernelAttn

open Cert.KernelIdeal Cert.KernelIdeal.Gen Cert.AttnSpec
open Idealize.ShloMosaic Idealize.ShloMosaic.ValueIdx Idealize.ShloMosaic.TcCoe
open Idealize.SL.Sem
open Idealize.ShloMosaic.Pipeline (Dat)

/-! ## What the body loaded, in terms of the staged block -/

theorem hz3 : (![0, 0, 0] : Fin 3 → Nat) = fun _ => 0 := funext fun a => by fin_cases a <;> rfl

/-- The load of the whole staged block reads it. -/
theorem loadedKeys_eq (x0 : Vec Ideal S1x512x128 .f32) : loadedKeys x0 = x0 :=
  View.ld_unit_zero (S := S1x512x128) hz3 inb_S1x512x128_S1x512x128_0_0_0 x0

/-- The row offset of the query tile: 256 times the point's second coordinate. -/
theorem off1_eq (ic : grid0.Coords) : k0_off1 ic = ![0, 256 * (ic 1).val, 0] := by
  have h : ∀ n : Fin 2, (Scalar.indexCast (Scalar.muli (BitVec.ofNat 32 n.val) 256#32)).toNat = 256 * n.val := by decide
  unfold k0_off1
  exact congrArg (fun v => (![0, v, 0] : Fin 3 → ℕ)) (h (ic 1))

/-- Row `q` of the loaded query tile is row 256 i₁ + q of the staged block. -/
theorem loadedTile_apply (ic : grid0.Coords) (x0 : Vec Ideal S1x512x128 .f32) (q : Fin 256) (f : Fin 128)
    (r : Fin 512) (hr : r.val = 256 * (ic 1).val + q.val) :
    loadedTile ic x0 (ix3 (0 : Fin 1) q f) = x0 (ix3 (0 : Fin 1) r f) := by
  show x0 _ = x0 _
  refine congrArg x0 (funext fun a => Fin.ext ?_)
  have e := off1_eq ic
  match a with
  | ⟨0, _⟩ => show k0_off1 ic 0 + 1 * 0 = 0; rw [e]; rfl
  | ⟨1, _⟩ => show k0_off1 ic 1 + 1 * q.val = r.val; rw [e, hr]; show 256 * (ic 1).val + 1 * q.val = _; omega
  | ⟨2, _⟩ => show k0_off1 ic 2 + 1 * f.val = f.val; rw [e]; show 0 + 1 * f.val = f.val; omega

/-- The block function of what the body loaded, at row `q` and lane `l`, is the specification's output row
    (b, 256 i₁ + q) at lane `l`, when the staged block is batch `b` of the input. -/
theorem tile_eq_out (x : (⟨3, ![8, 512, 128]⟩ : Shape).Idx → EReal) (x0 : Vec Ideal S1x512x128 .f32) (ic : grid0.Coords)
    (b : Fin 8) (hx0 : ∀ (s : Fin 512) (f : Fin 128), x0 (ix3 (0 : Fin 1) s f) = x (ix3 b s f))
    (q : Fin 256) (l : Fin 16512) (r : Fin 512) (hr : r.val = 256 * (ic 1).val + q.val) :
    tileAt (loadedKeys x0) (loadedTile ic x0) q l = outRow x b r l := by
  have hK : blockKeys (loadedKeys x0) = keys x b := by
    funext s f
    unfold blockKeys keys
    rw [loadedKeys_eq, hx0]
  have hQ : tileRow (loadedTile ic x0) q = keys x b r := by
    funext f
    unfold tileRow keys
    rw [loadedTile_apply ic x0 q f r hr, hx0]
  unfold tileAt outRow
  by_cases h : l.val < 128
  · rw [dif_pos h, dif_pos h, loadedTile_apply ic x0 q _ r hr, hx0]
  · rw [dif_neg h, dif_neg h, hK, hQ]

/-! ## The grid's index maps -/

variable (m : (ℓ : Loc nD τ sig) → Buf (Elt Ideal) ℓ) (ρ : Dev nD → PrngReg)

/-- Point `t` stages block (b, 0, 0) of the input and writes block (b, i₁, 0) of the output, (b, i₁) its
    coordinates: decided over the sixteen points. -/
theorem idx_facts : ∀ t : Fin cfg0.N, win0_0.index t (0 : Fin 3) = win0_1.index t (0 : Fin 3)
    ∧ win0_0.index t (1 : Fin 3) = 0 ∧ win0_0.index t (2 : Fin 3) = 0 ∧ win0_1.index t (2 : Fin 3) = 0
    ∧ win0_1.index t (0 : Fin 3) < 8 ∧ win0_1.index t (1 : Fin 3) < 2
    ∧ (grid0.coords t (1 : Fin 2)).val = win0_1.index t (1 : Fin 3) :=
  (by decide +kernel : ∀ t : Fin grid0.N, _)

/-- Every output block is some point's. -/
theorem idx_onto : ∀ (q0 : Fin 8) (q1 : Fin 2), ∃ t : Fin cfg0.N, win0_1.index t = ![q0.val, q1.val, 0] :=
  (by decide +kernel : ∀ (q0 : Fin 8) (q1 : Fin 2), ∃ t : Fin grid0.N, win0_1.index t = ![q0.val, q1.val, 0])

/-- The staged block at point `t` is batch `b` of the input array. -/
theorem iblk_apply (c : Dev nD) (t : Fin cfg0.N) (b : Fin 8) (hb : b.val = win0_1.index t (0 : Fin 3))
    (s : Fin 512) (f : Fin 128) :
    (iblk m c 0 t : Vec Ideal S1x512x128 .f32) (ix3 (0 : Fin 1) s f) = V m c main_arg0 (ix3 b s f) := by
  obtain ⟨e0, e1, e2, -, -, -, -⟩ := idx_facts t
  show V m c main_arg0 (((cfg0.win 0).blk t).view.emb (ix3 (0 : Fin 1) s f)) = V m c main_arg0 (ix3 b s f)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * s.val = s.val; omega
  | ⟨2, _⟩ => show win0_0.index t (2 : Fin 3) * 128 + 1 * f.val = f.val; omega

/-- What point `t` writes back is block `t` of the specification's function of the input array. -/
theorem flushed_eq (c : Dev nD) (t : Fin cfg0.N) :
    (dats m 0 c).flushed 1 t = ((cfg0.win 1).blk t).view.read (Elt Ideal) (out (V m c main_arg0)) := by
  obtain ⟨e0, e1, e2, e3, e4, e5, e6⟩ := idx_facts t
  rw [Cert.KernelIdeal.Value.flushed1_A, out_eq]
  funext j
  have hj1 : (j 1).val < 256 := (j 1).isLt
  have hj2 : (j 2).val < 16512 := (j 2).isLt
  show tileAt (loadedKeys (iblk m c 0 t)) (loadedTile (grid0.coords t) (iblk m c 0 t)) ⟨(j 1).val, hj1⟩ ⟨(j 2).val, hj2⟩
    = outRow (V m c main_arg0) (((cfg0.win 1).blk t).view.emb j 0) (((cfg0.win 1).blk t).view.emb j 1) (((cfg0.win 1).blk t).view.emb j 2)
  have h0 : ((cfg0.win 1).blk t).view.emb j 0 = (⟨win0_1.index t (0 : Fin 3), e4⟩ : Fin 8) :=
    Fin.ext (by
      have hj0 : (j 0).val < 1 := (j 0).isLt
      show win0_1.index t (0 : Fin 3) * 1 + 1 * (j 0).val = win0_1.index t (0 : Fin 3); omega)
  have h1 : ((cfg0.win 1).blk t).view.emb j 1 = (⟨256 * win0_1.index t (1 : Fin 3) + (j 1).val, by omega⟩ : Fin 512) :=
    Fin.ext (by show win0_1.index t (1 : Fin 3) * 256 + 1 * (j 1).val = 256 * win0_1.index t (1 : Fin 3) + (j 1).val; omega)
  have h2 : ((cfg0.win 1).blk t).view.emb j 2 = (⟨(j 2).val, hj2⟩ : Fin 16512) :=
    Fin.ext (by show win0_1.index t (2 : Fin 3) * 16512 + 1 * (j 2).val = (j 2).val; omega)
  rw [h0, h1, h2]
  exact tile_eq_out (V m c main_arg0) (iblk m c 0 t) (grid0.coords t) ⟨win0_1.index t (0 : Fin 3), e4⟩
    (iblk_apply m c t ⟨win0_1.index t (0 : Fin 3), e4⟩ rfl) ⟨(j 1).val, hj1⟩ ⟨(j 2).val, hj2⟩
    ⟨256 * win0_1.index t (1 : Fin 3) + (j 1).val, by omega⟩ (by show 256 * win0_1.index t (1 : Fin 3) + (j 1).val = 256 * (grid0.coords t (1 : Fin 2)).val + (j 1).val; rw [e6])

/-- An index of the output array is in point `t`'s block iff each coordinate is in the block's range. -/
theorem mem_blk (t : Fin cfg0.N) (i : S8x512x16512.Idx) :
    i ∈ ((cfg0.win 1).blk t).view.set ↔ ∀ a : Fin 3, win0_1.index t a * S1x256x16512.size a ≤ (i a).val
      ∧ (i a).val < win0_1.index t a * S1x256x16512.size a + S1x256x16512.size a := by
  show i ∈ ((View.whole main_v0).slice (win0_1.rect t)).set ↔ _
  rw [View.set_slice_whole, Rect.mem_set_unit]
  exact Iff.rfl

/-- Every index of the output array is in some point's block. -/
theorem cover (i : S8x512x16512.Idx) : ∃ t : Fin cfg0.N, (cfg0.win 1).flush t = true ∧ i ∈ ((cfg0.win 1).blk t).view.set := by
  have hi0 : (i 0).val < 8 := (i 0).isLt
  have hi1 : (i 1).val < 512 := (i 1).isLt
  have hi2 : (i 2).val < 16512 := (i 2).isLt
  obtain ⟨t, ht⟩ := idx_onto ⟨(i 0).val, hi0⟩ ⟨(i 1).val / 256, by omega⟩
  have q0 : win0_1.index t (0 : Fin 3) = (i 0).val := congrFun ht 0
  have q1 : win0_1.index t (1 : Fin 3) = (i 1).val / 256 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 16512 ≤ (i 2).val ∧ (i 2).val < win0_1.index t (2 : Fin 3) * 16512 + 16512; omega

/-- After the run the output array is the specification's function of the input array. -/
theorem final (c : Dev nD) : (dats m 0 c).arrAt 1 cfg0.N = out (V m c main_arg0) :=
  (dats m 0 c).arrAt_eq_of_cover 1 (out (V m c main_arg0)) (fun t _ => flushed_eq m c t) cover

/-- The kernel's run: every weakly fair execution ends with the result array at `out` of the argument array, the
    argument unchanged. -/
theorem run : θ_run defs (onTc (τ := τ) (main (F := Ideal))) ⟨m, fun _ => 0, ρ⟩ fun r => ∀ c : Dev nD,
      r.2.mem ((c : Thread nD τ).loc main_v0) = out (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelAttn

end
-- ==== Proof.lean ====
/-
  The kernel against its reference: for an input `x` of 8 batches of 512 steps of 128 features, both compute, for
  every batch `b` and step `i`, the row made of `x b i` followed by 128 copies of the vector attended from `x b i`
  over the steps of the batch — weights `exp(score) / (∑ exp(score) + ε)` with `score` the inner product of a step
  with `x b i`, and the attended vector the weighted sum of the steps (`Proof/Spec.lean`).

  The kernel works on a grid of 8 x 2 points: point (b, i₁) holds the keys of batch `b`, slices the 256 query rows from
  row 256 i₁, forms scores, weights and attended vectors as two matrix products around a column softmax, and stores
  the query rows and then 32 four-fold copies of the attended vectors into its 256 x 16512 output block. Read over the
  extended reals a change of float format is the identity and a matrix product into a zero accumulator is the plain
  sum, so each block is the specification restricted to the block (`Proof/Payload.lean`, `Proof/Tile.lean`,
  `Proof/Block.lean`), and the blocks cover the output (`Proof/Array.lean`). The reference computes all scores of a
  batch in one contraction and repeats the result through a reshape, a broadcast and a reshape; index by index it is
  the same specification (`Proof/RefG.lean`). No algebraic law is needed beyond `0 + s = s` for the reference's
  initial value of its sum, so the inputs' finiteness is never used.

  The three frames are the generated ones (the reference's is its generated run with the result dropped), and the
  idealization rewrote nothing, so its claim is `True`.
-/
import proofs.«126900_j19670950216611_2_alg».proof.Defs
import proofs.«126900_j19670950216611_2_alg».proof.Proof.Gen.Kernel
import proofs.«126900_j19670950216611_2_alg».proof.Proof.Gen.Kernel.Skeleton
import proofs.«126900_j19670950216611_2_alg».proof.Proof.Gen.Kernel.Launch
import proofs.«126900_j19670950216611_2_alg».proof.Proof.Gen.Kernel.Points
import proofs.«126900_j19670950216611_2_alg».proof.Proof.Gen.Kernel.Frame
import proofs.«126900_j19670950216611_2_alg».proof.Proof.Gen.KernelIdeal
import proofs.«126900_j19670950216611_2_alg».proof.Proof.Gen.KernelIdeal.Skeleton
import proofs.«126900_j19670950216611_2_alg».proof.Proof.Gen.KernelIdeal.Launch
import proofs.«126900_j19670950216611_2_alg».proof.Proof.Gen.KernelIdeal.Points
import proofs.«126900_j19670950216611_2_alg».proof.Proof.Gen.KernelIdeal.Frame
import proofs.«126900_j19670950216611_2_alg».proof.Proof.Gen.ReferenceIdeal
import proofs.«126900_j19670950216611_2_alg».proof.Proof.Gen.Pre_finite_inputs
import proofs.«126900_j19670950216611_2_alg».proof.Proof.Gen.KernelIdeal.Value
import proofs.«126900_j19670950216611_2_alg».proof.Proof.Gen.ReferenceIdeal.Run
import proofs.«126900_j19670950216611_2_alg».proof.Proof.Gen.ReferenceIdeal.Read
import proofs.«126900_j19670950216611_2_alg».proof.Proof.RefG
import proofs.«126900_j19670950216611_2_alg».proof.Proof.Array
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the specification's function of its argument, and so
    does the reference's, of an argument that agrees. -/
theorem algebraic : Cert.algebraic_KernelIdeal_ReferenceIdeal := by
  intro m ρ m' ρ' _ hagree
  refine ⟨fun c => Cert.AttnSpec.out (m ((c : Thread Cert.KernelIdeal.nD Cert.KernelIdeal.τ).loc Cert.KernelIdeal.main_arg0)),
    Cert.KernelAttn.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.RefAttn.ref_out, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
